-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x10 .f32) (main_arg1 : IVec S2x1600000 32) (main_arg2 : FVec F S6x128 .f32) (main_arg3 : FVec F S128 .f32) (main_arg4 : FVec F S6x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S6x128 .f32 := Host.absf main_arg2
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg5 main_arg6 main_arg7 main_arg8 main_arg9 main_arg10 main_v13 main_v16
-- ==== Kernel.lean ====
abbrev S100000x10 : Shape := ⟨2, ![100000, 10]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x6 : Shape := ⟨2, ![100000, 6]⟩
abbrev S1600000x6 : Shape := ⟨2, ![1600000, 6]⟩
abbrev S100000x1 : Shape := ⟨2, ![100000, 1]⟩
abbrev S1x128 : Shape := ⟨2, ![1, 128]⟩
abbrev S100000x128 : Shape := ⟨2, ![100000, 128]⟩
abbrev S5000x6 : Shape := ⟨2, ![5000, 6]⟩
abbrev S5000x128 : Shape := ⟨2, ![5000, 128]⟩
abbrev S1600000x128 : Shape := ⟨2, ![1600000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 82
  | .vmem => 27
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S6x128, .f32⟩
  | .hbm, ⟨3, _⟩ => ⟨S128, .f32⟩
  | .hbm, ⟨4, _⟩ => ⟨S6x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x6, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x6, .f32⟩
  | .hbm, ⟨37, _⟩ => ⟨S_, .f32⟩
  | .hbm, ⟨38, _⟩ => ⟨S100000x6, .f32⟩
  | .hbm, ⟨39, _⟩ => ⟨S1600000x1, .i32⟩
  | .hbm, ⟨40, _⟩ => ⟨S100000x6, .f32⟩
  | .hbm, ⟨41, _⟩ => ⟨S100000x1, .f32⟩
  | .hbm, ⟨42, _⟩ => ⟨S100000x6, .f32⟩
  | .hbm, ⟨43, _⟩ => ⟨S100000x6, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S1x64, .f32⟩
  | .hbm, ⟨81, _⟩ => ⟨S100000x64, .f32⟩
  | .local _ .vmem, ⟨0, _⟩ => ⟨S5000x6, .f32⟩
  | .local _ .vmem, ⟨1, _⟩ => ⟨S5000x6, .f32⟩
  | .local _ .vmem, ⟨2, _⟩ => ⟨S5000x6, .f32⟩
  | .local _ .vmem, ⟨3, _⟩ => ⟨S5000x6, .f32⟩
  | .local _ .vmem, ⟨4, _⟩ => ⟨S6x128, .f32⟩
  | .local _ .vmem, ⟨5, _⟩ => ⟨S1x128, .f32⟩
  | .local _ .vmem, ⟨6, _⟩ => ⟨S6x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S100000x10_S100000x6_0_4 : S100000x10.Slices ![0, 4] S100000x6
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  shapeCasts_S128_S1x128 : S128.ShapeCasts S1x128
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S5000x6_S6x128_S5000x128_1_0_0_1_n_n_wf : DotDims.WF S5000x6 S6x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S100000x6.size a
  hwx0_1 : ∀ i : grid0.Coords, EltTy.bits .f32 = 32 ∨ (Rect.block (s := S100000x6) S5000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x10 : Shape := ⟨2, ![100000, 10]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x6 : Shape := ⟨2, ![100000, 6]⟩
abbrev S_ : Shape := ⟨0, ![]⟩
abbrev S1600000x1 : Shape := ⟨2, ![1600000, 1]⟩
abbrev S1600000x6 : Shape := ⟨2, ![1600000, 6]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S6x128, .f32⟩
  | .hbm, ⟨3, _⟩ => ⟨S128, .f32⟩
  | .hbm, ⟨4, _⟩ => ⟨S6x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x6, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x6, .f32⟩
  | .hbm, ⟨25, _⟩ => ⟨S_, .f32⟩
  | .hbm, ⟨26, _⟩ => ⟨S100000x6, .f32⟩
  | .hbm, ⟨27, _⟩ => ⟨S1600000x1, .i32⟩
  | .hbm, ⟨28, _⟩ => ⟨S100000x6, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x6, .f32⟩
  | .hbm, ⟨40, _⟩ => ⟨S100000x6, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S_, .f32⟩
  | .hbm, ⟨98, _⟩ => ⟨S1600000, .f32⟩
  | .hbm, ⟨99, _⟩ => ⟨S_, .f32⟩
  | .hbm, ⟨100, _⟩ => ⟨S100000, .f32⟩
  | .hbm, ⟨101, _⟩ => ⟨S1600000x1, .i32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S100000x64, .f32⟩
  | .hbm, ⟨117, _⟩ => ⟨S100000x64, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x10_S100000x6_0_4 : S100000x10.Slices ![0, 4] S100000x6
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  scatter_S100000_S1600000x1_S1600000_n_0_0_1_wf : ScatterDims.WF S100000 S1600000x1 S1600000 [] [0] [0] 1
  dot_S100000x6_S6x128_S100000x128_1_0_0_1_n_n_wf : DotDims.WF S100000x6 S6x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KerRunOut.lean ====
/- The program's run with its result named.  The three regions and the host stretches between them run as one
   chain of segments; at the end every buffer the TensorCore keeps holds the last boundary's contents, so the
   result buffer holds what the third region's write-backs left there, and the arguments what was launched. -/
import proofs.«101241_j35278861369955_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and
    the arguments as launched. -/
theorem run_out : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Out

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«101241_j35278861369955_1_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.LibDenseLayer.lean ====
/- A dense layer with a neighbour mean, at the ideal float instance, for any extents.
   `affine mean h wl bias wr` is the closed form max((Σ_t mean i t · wl t j + bias j) + Σ_t h i t · wr t j, 0).
   Read at an entry, it is what a host program computes by two products, a bias row spread over the rows, two sums
   and a maximum with a zero splat (`hostLayer_read`), and what a kernel body computes from its loaded blocks by two
   products into zero accumulators of operands narrowed to a shorter format, a one-row bias repeated down the rows,
   two sums and a maximum with a zero scalar (`body_entry`).
   And the mean itself: a matrix times the column of reciprocals 1 / d, spread over the columns, is the matrix
   divided by the column d spread the same way, whenever no entry of d is zero (`mul_recip_rows`) — on the extended
   reals a product with 1 / c is the quotient by c off c = 0, an infinite c included (both sides are the product
   with zero); a maximum with one is never zero (`max_one_ne_zero`). -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«101241_j35278861369955_1_alg».proof.Proof.LibMatProd
import proofs.«101241_j35278861369955_1_alg».proof.Proof.LibHostMatRead

noncomputable section

namespace Cert.Lib.DenseLayer

open Idealize.ShloMosaic Idealize.ShloMosaic.ValueIdx
open scoped BigOperators

/-- The word 0x3F800000 is the number one. -/
theorem one_word : Ideal.ofBits .f32 0x3F800000#32 = (1 : EReal) := by
  simp [Ideal.ofBits, Ideal.ieee]
  rw [← EReal.coe_mul]
  norm_num

/-- A product with the reciprocal is the quotient, off a zero divisor. -/
theorem mul_recip (s c : EReal) (hc : c ≠ 0) : s * Ideal.div 1 c = Ideal.div s c := by
  unfold Ideal.div
  rw [if_neg hc, if_neg hc, one_mul]

/-- A maximum with one is not zero. -/
theorem max_one_ne_zero (a : EReal) : max a 1 ≠ 0 :=
  ne_of_gt (lt_of_lt_of_le zero_lt_one (le_max_right a 1))

/-- The closed form of a layer at entry (i, j): max((Σ_t mean i t · wl t j + bias j) + Σ_t h i t · wr t j, 0). -/
def affine {n a b : ℕ} (mean h : FVec Ideal ⟨2, ![n, a]⟩ .f32) (wl : FVec Ideal ⟨2, ![a, b]⟩ .f32) (bias : FVec Ideal ⟨1, ![b]⟩ .f32)
    (wr : FVec Ideal ⟨2, ![a, b]⟩ .f32) : FVec Ideal ⟨2, ![n, b]⟩ .f32 :=
  fun j => max (((∑ t : Fin a, mean (ix2 (j 0) t) * wl (ix2 t (j 1))) + bias (ix1 (j 1)))
    + ∑ t : Fin a, h (ix2 (j 0) t) * wr (ix2 t (j 1))) 0

theorem affine_apply {n a b : ℕ} (mean h : FVec Ideal ⟨2, ![n, a]⟩ .f32) (wl : FVec Ideal ⟨2, ![a, b]⟩ .f32) (bias : FVec Ideal ⟨1, ![b]⟩ .f32)
    (wr : FVec Ideal ⟨2, ![a, b]⟩ .f32) (p : Fin n) (q : Fin b) :
    affine mean h wl bias wr (ix2 p q) = max (((∑ t : Fin a, mean (ix2 p t) * wl (ix2 t q)) + bias (ix1 q))
      + ∑ t : Fin a, h (ix2 p t) * wr (ix2 t q)) 0 := rfl

/-- A matrix times the reciprocals of a column, spread over the columns, is the matrix divided by the column
    spread the same way, for any extents, when no entry of the column is zero. -/
theorem mul_recip_rows {a b : ℕ} (d : FVec Ideal ⟨1, ![a]⟩ .f32) (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (hd : ∀ i, d i ≠ 0) :
    mulf s (broadcastInDim ⟨2, ![a, b]⟩ ![0, 1] h2 (broadcastInDim ⟨2, ![a, 1]⟩ ![0] h1
        (Host.divf (F := Ideal) (broadcastInDim ⟨1, ![a]⟩ ![] h0 (constant (F := Ideal) ⟨0, ![]⟩ .f32 0x3F800000#32)) d)))
      = Host.divf (F := Ideal) s (broadcastInDim ⟨2, ![a, b]⟩ ![0, 1] h2 (broadcastInDim ⟨2, ![a, 1]⟩ ![0] h1 d)) := by
  funext j
  obtain ⟨p, q, rfl⟩ : ∃ (p : Fin a) (q : Fin b), j = ix2 p q := ⟨j 0, j 1, eq_ix2 j⟩
  show s (ix2 p q) * _ = Ideal.div (s (ix2 p q)) _
  rw [Cert.Lib.HostMatRead.colBcast_read, Cert.Lib.HostMatRead.colBcast_read]
  show s (ix2 p q) * Ideal.div (broadcastInDim ⟨1, ![a]⟩ ![] h0 (constant (F := Ideal) ⟨0, ![]⟩ .f32 0x3F800000#32) (ix1 p)) (d (ix1 p)) = _
  rw [Cert.Lib.HostMatRead.splat_read, constant_apply, one_word]
  exact mul_recip _ _ (hd _)

/-- A host layer read at every entry is the closed form, for any extents. -/
theorem hostLayer_read {n a b : ℕ} (mean h : FVec Ideal ⟨2, ![n, a]⟩ .f32) (wl : FVec Ideal ⟨2, ![a, b]⟩ .f32) (bl : FVec Ideal ⟨1, ![b]⟩ .f32)
    (wr : FVec Ideal ⟨2, ![a, b]⟩ .f32)
    (h0 : (⟨0, ![]⟩ : Shape).BroadcastsInDim ⟨2, ![n, b]⟩ (![] : Fin 0 → Fin 2))
    (h1 : (⟨1, ![b]⟩ : Shape).BroadcastsInDim ⟨2, ![1, b]⟩ (![1] : Fin 1 → Fin 2))
    (h2 : (⟨2, ![1, b]⟩ : Shape).BroadcastsInDim ⟨2, ![n, b]⟩ (![0, 1] : Fin 2 → Fin 2)) :
    maximumf (addf (addf (Host.dotGeneral (F := Ideal) (DotDims.plain n a b) none mean wl)
        (broadcastInDim ⟨2, ![n, b]⟩ ![0, 1] h2 (broadcastInDim ⟨2, ![1, b]⟩ ![1] h1 bl)))
        (Host.dotGeneral (F := Ideal) (DotDims.plain n a b) none h wr))
      (broadcastInDim ⟨2, ![n, b]⟩ ![] h0 (constant (F := Ideal) ⟨0, ![]⟩ .f32 0x00000000#32))
      = affine mean h wl bl wr := by
  funext j
  obtain ⟨p, q, rfl⟩ : ∃ (p : Fin n) (q : Fin b), j = ix2 p q := ⟨j 0, j 1, eq_ix2 j⟩
  rw [affine_apply, maximumf_apply, addf_apply, addf_apply, Cert.Lib.HostMatRead.rowBcast_read, Cert.Lib.HostMatRead.splat_read,
    constant_apply, Ideal.ofBits_zero_f32]
  simp only [Host.dotGeneral]
  rw [Cert.Lib.MatProd.dotGeneral_read, Cert.Lib.MatProd.dotGeneral_read]

/-- A kernel body's arithmetic for the layer, at an entry of its block, for any extents: the operands narrowed
    (the identity on extended reals), the products into zero accumulators, the one-row bias repeated. -/
theorem body_entry {n a b : ℕ} (x0 x1 : FVec Ideal ⟨2, ![n, a]⟩ .f32) (x2 x4 : FVec Ideal ⟨2, ![a, b]⟩ .f32) (x3 : FVec Ideal ⟨2, ![1, b]⟩ .f32)
    (c0 : (⟨2, ![n, a]⟩ : Shape).ShapeCasts ⟨2, ![n, a]⟩) (c3 : (⟨2, ![1, b]⟩ : Shape).ShapeCasts ⟨2, ![1, b]⟩)
    (hb : (⟨2, ![1, b]⟩ : Shape).Broadcasts ⟨2, ![n, b]⟩) (hlt : FTy.bf16.bits < FTy.f32.bits) (p : Fin n) (q : Fin b) :
    maximumf (addf (addf (matmul (F := Ideal) (DotDims.plain n a b) none (truncf .bf16 (shapeCast ⟨2, ![n, a]⟩ x0 c0) hlt) (truncf .bf16 x2 hlt)
          (constant (F := Ideal) ⟨2, ![n, b]⟩ .f32 0x00000000#32))
        (broadcastTo ⟨2, ![n, b]⟩ (shapeCast ⟨2, ![1, b]⟩ x3 c3) hb))
        (matmul (F := Ideal) (DotDims.plain n a b) none (truncf .bf16 (shapeCast ⟨2, ![n, a]⟩ x1 c0) hlt) (truncf .bf16 x4 hlt)
          (constant (F := Ideal) ⟨2, ![n, b]⟩ .f32 0x00000000#32)))
      (broadcast ⟨2, ![n, b]⟩ (Scalar.ofBits (F := Ideal) .f32 0x00000000#32)) (ix2 p q)
      = max (((∑ t : Fin a, x0 (ix2 p t) * x2 (ix2 t q)) + x3 (ix2 (0 : Fin 1) q)) + ∑ t : Fin a, x1 (ix2 p t) * x4 (ix2 t q)) 0 := by
  rw [maximumf_apply, addf_apply, addf_apply, broadcast_apply, shapeCast_self, shapeCast_self, shapeCast_self,
    broadcastTo_1b_ab_apply]
  show max ((FloatOps.matmul (DotDims.plain n a b) none _ _ _ (ix2 p q) + _) + FloatOps.matmul (DotDims.plain n a b) none _ _ _ (ix2 p q))
    (Ideal.ofBits .f32 0x00000000#32) = _
  rw [Cert.Lib.MatProd.matmul_zero_read, Cert.Lib.MatProd.matmul_zero_read, Ideal.ofBits_zero_f32]
  rfl

end Cert.Lib.DenseLayer

end
-- ==== Proof.KerBody.lean ====
/- What one grid point's body stores, read at an entry (p, q) of its block, for each of the three layers:
   max((Σ_t x0 p t · x2 t q + x3 0 q) + Σ_t x1 p t · x4 t q, 0) — the body's operations are the dense layer's at
   the block's extents. -/
import proofs.«101241_j35278861369955_1_alg».proof.Proof.Gen.KernelIdeal.Skeleton
import proofs.«101241_j35278861369955_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen
open scoped BigOperators

/-- The first layer's body at an entry of its 5000 × 128 block. -/
theorem pay0_read (x0 x1 : Vec Ideal S5000x6 .f32) (x2 x4 : Vec Ideal S6x128 .f32) (x3 : Vec Ideal S1x128 .f32) (p : Fin 5000) (q : Fin 128) :
    k0_pay1 (F := Ideal) x0 x1 x2 x4 x3 (ix2 p q)
      = max (((∑ t : Fin 6, x0 (ix2 p t) * x2 (ix2 t q)) + x3 (ix2 (0 : Fin 1) q)) + ∑ t : Fin 6, x1 (ix2 p t) * x4 (ix2 t q)) 0 := by
  unfold k0_pay1
  exact Cert.Lib.DenseLayer.body_entry x0 x1 x2 x4 x3 _ _ _ _ p q

/-- The second layer's body at an entry of its 5000 × 128 block. -/
theorem pay1_read (x0 x1 : Vec Ideal S5000x128 .f32) (x2 x4 : Vec Ideal S128x128 .f32) (x3 : Vec Ideal S1x128 .f32) (p : Fin 5000) (q : Fin 128) :
    k1_pay1 (F := Ideal) x0 x1 x2 x4 x3 (ix2 p q)
      = max (((∑ t : Fin 128, x0 (ix2 p t) * x2 (ix2 t q)) + x3 (ix2 (0 : Fin 1) q)) + ∑ t : Fin 128, x1 (ix2 p t) * x4 (ix2 t q)) 0 := by
  unfold k1_pay1
  exact Cert.Lib.DenseLayer.body_entry x0 x1 x2 x4 x3 _ _ _ _ p q

/-- The third layer's body at an entry of its 5000 × 64 block. -/
theorem pay2_read (x0 x1 : Vec Ideal S5000x128 .f32) (x2 x4 : Vec Ideal S128x64 .f32) (x3 : Vec Ideal S1x64 .f32) (p : Fin 5000) (q : Fin 64) :
    k2_pay1 (F := Ideal) x0 x1 x2 x4 x3 (ix2 p q)
      = max (((∑ t : Fin 128, x0 (ix2 p t) * x2 (ix2 t q)) + x3 (ix2 (0 : Fin 1) q)) + ∑ t : Fin 128, x1 (ix2 p t) * x4 (ix2 t q)) 0 := by
  unfold k2_pay1
  exact Cert.Lib.DenseLayer.body_entry x0 x1 x2 x4 x3 _ _ _ _ p q

end Cert.KernelIdeal.Body

end
-- ==== Proof.KerBlocks0.lean ====
/- The first layer's region, from blocks to the array.  Grid point t loads rows 5000·t … 5000·t + 4999 of the
   two node matrices and the whole of the two weight matrices and of the bias row, and writes back rows
   5000·t … 5000·t + 4999 of the result; the twenty row blocks tile the 100000 rows, so the array the region
   leaves is the closed-form layer of the arrays the region found. -/
import proofs.«101241_j35278861369955_1_alg».proof.Proof.Gen.KernelIdeal.Frame
import proofs.«101241_j35278861369955_1_alg».proof.Proof.KerBody
import proofs.«101241_j35278861369955_1_alg».proof.Proof.LibDenseLayer
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows follow the point, the weights and
    the bias stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 5000·t + p of the array. -/
def row (t : Fin cfg0.N) (p : Fin 5000) : Fin 100000 :=
  ⟨t.val * 5000 + p.val, by have h1 := t.isLt; have h2 : cfg0.N = 20 := N_0; have h3 := p.isLt; omega⟩

/-- The layer of the arrays the region finds. -/
abbrev G (c : Dev nD) : S100000x128.Idx → Elt Ideal .f32 :=
  Cert.Lib.DenseLayer.affine (n := 100000) (a := 6) (b := 128) (V c main_v25) (V c main_v12) (V c main_arg2) (fun i => V c main_v26 (ix2 (0 : Fin 1) (i 0))) (V c main_arg4)

theorem read0 (c : Dev nD) (t : Fin cfg0.N) (p : Fin 5000) (k : Fin 6) :
    (iblk0 V c 0 t : Vec Ideal S5000x6 .f32) (ix2 p k) = (V c main_v25 : S100000x6.Idx → Elt Ideal .f32) (ix2 (row t p) k) := by
  obtain ⟨e0, e1, -⟩ := idx_facts t
  unfold iblk0
  rw [View.read_apply]
  show V c main_v25 _ = V c main_v25 _
  congr 1
  funext ax
  apply Fin.ext
  match ax with
  | ⟨0, _⟩ => show win0_0.index t (0 : Fin 2) * 5000 + 1 * p.val = t.val * 5000 + p.val; rw [e0]; omega
  | ⟨1, _⟩ => show win0_0.index t (1 : Fin 2) * 6 + 1 * k.val = k.val; rw [e1]; omega

theorem read1 (c : Dev nD) (t : Fin cfg0.N) (p : Fin 5000) (k : Fin 6) :
    (iblk0 V c 1 t : Vec Ideal S5000x6 .f32) (ix2 p k) = (V c main_v12 : S100000x6.Idx → Elt Ideal .f32) (ix2 (row t p) k) := by
  obtain ⟨-, -, e0, e1, -⟩ := idx_facts t
  unfold iblk0
  rw [View.read_apply]
  show V c main_v12 _ = V c main_v12 _
  congr 1
  funext ax
  apply Fin.ext
  match ax with
  | ⟨0, _⟩ => show win0_1.index t (0 : Fin 2) * 5000 + 1 * p.val = t.val * 5000 + p.val; rw [e0]; omega
  | ⟨1, _⟩ => show win0_1.index t (1 : Fin 2) * 6 + 1 * k.val = k.val; rw [e1]; omega

theorem read2 (c : Dev nD) (t : Fin cfg0.N) (k : Fin 6) (q : Fin 128) :
    (iblk0 V c 2 t : Vec Ideal S6x128 .f32) (ix2 k q) = (V c main_arg2 : S6x128.Idx → Elt Ideal .f32) (ix2 k q) := by
  obtain ⟨-, -, -, -, e0, e1, -⟩ := idx_facts t
  unfold iblk0
  rw [View.read_apply]
  show V c main_arg2 _ = V c main_arg2 _
  congr 1
  funext ax
  apply Fin.ext
  match ax with
  | ⟨0, _⟩ => show win0_2.index t (0 : Fin 2) * 6 + 1 * k.val = k.val; rw [e0]; omega
  | ⟨1, _⟩ => show win0_2.index t (1 : Fin 2) * 128 + 1 * q.val = q.val; rw [e1]; omega

theorem read3 (c : Dev nD) (t : Fin cfg0.N) (u : Fin 1) (q : Fin 128) :
    (iblk0 V c 3 t : Vec Ideal S1x128 .f32) (ix2 u q) = (V c main_v26 : S1x128.Idx → Elt Ideal .f32) (ix2 u q) := by
  obtain ⟨-, -, -, -, -, -, e0, e1, -⟩ := idx_facts t
  unfold iblk0
  rw [View.read_apply]
  show V c main_v26 _ = V c main_v26 _
  congr 1
  funext ax
  apply Fin.ext
  match ax with
  | ⟨0, _⟩ => show win0_3.index t (0 : Fin 2) * 1 + 1 * u.val = u.val; rw [e0]; omega
  | ⟨1, _⟩ => show win0_3.index t (1 : Fin 2) * 128 + 1 * q.val = q.val; rw [e1]; omega

theorem read4 (c : Dev nD) (t : Fin cfg0.N) (k : Fin 6) (q : Fin 128) :
    (iblk0 V c 4 t : Vec Ideal S6x128 .f32) (ix2 k q) = (V c main_arg4 : S6x128.Idx → Elt Ideal .f32) (ix2 k q) := by
  obtain ⟨-, -, -, -, -, -, -, -, e0, e1, -⟩ := idx_facts t
  unfold iblk0
  rw [View.read_apply]
  show V c main_arg4 _ = V c main_arg4 _
  congr 1
  funext ax
  apply Fin.ext
  match ax with
  | ⟨0, _⟩ => show win0_4.index t (0 : Fin 2) * 6 + 1 * k.val = k.val; rw [e0]; omega
  | ⟨1, _⟩ => show win0_4.index t (1 : Fin 2) * 128 + 1 * q.val = q.val; rw [e1]; omega

/-- Entry (p, q) of the output's block t is entry (5000·t + p, q) of the array. -/
theorem emb5 (t : Fin cfg0.N) (p : Fin 5000) (q : Fin 128) :
    ((cfg0.win 5).blk t).view.emb (ix2 p q : S5000x128.Idx) = (ix2 (row t p) q : S100000x128.Idx) := by
  obtain ⟨-, -, -, -, -, -, -, -, -, -, e0, e1⟩ := idx_facts t
  funext ax
  apply Fin.ext
  match ax with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- What point t writes back is block t of the layer of the arrays the region found. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x6) hz, View.ld_unit_zero (S := S6x128) hz, View.ld_unit_zero (S := S1x128) hz]
  refine funext fun (y : S5000x128.Idx) => ?_
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 4 t) (iblk0 V c 3 t) (ix2 p q)
    = G V c (((cfg0.win 5).blk t).view.emb (ix2 p q : S5000x128.Idx))
  refine (pay0_read _ _ _ _ _ p q).trans ?_
  rw [emb5]
  refine Eq.trans ?_ (Cert.Lib.DenseLayer.affine_apply (n := 100000) (a := 6) (b := 128) _ _ _ _ _ (row t p) q).symm
  simp only [read0, read1, read2, read3, read4]
  try rfl

/-- Every row of the array lies in the block of the point its number divided by 5000 names. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨-, -, -, -, -, -, -, -, -, -, e0, e1⟩ := idx_facts t
  refine ⟨t, flush0_5 t, ?_⟩
  show i ∈ ((View.whole main_v27).slice (win0_5.rect t)).set
  rw [View.set_slice_whole, Rect.mem_set_unit]
  intro ax
  match ax with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The array the region leaves is the layer of the arrays it found. -/
theorem final (c : Dev nD) : (dat0 V c).arrAt 5 cfg0.N = G V c :=
  (dat0 V c).arrAt_eq_of_cover 5 (G V c) (fun t _ => flushed_eq V c t) (cover)

end Cert.KernelIdeal.Blocks0

end
-- ==== Proof.KerBlocks1.lean ====
/- The second layer's region, from blocks to the array.  Grid point t loads rows 5000·t … 5000·t + 4999 of the
   two node matrices and the whole of the two weight matrices and of the bias row, and writes back rows
   5000·t … 5000·t + 4999 of the result; the twenty row blocks tile the 100000 rows, so the array the region
   leaves is the closed-form layer of the arrays the region found. -/
import proofs.«101241_j35278861369955_1_alg».proof.Proof.Gen.KernelIdeal.Frame
import proofs.«101241_j35278861369955_1_alg».proof.Proof.KerBody
import proofs.«101241_j35278861369955_1_alg».proof.Proof.LibDenseLayer
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows follow the point, the weights and
    the bias stay at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000·t + p of the array. -/
def row (t : Fin cfg1.N) (p : Fin 5000) : Fin 100000 :=
  ⟨t.val * 5000 + p.val, by have h1 := t.isLt; have h2 : cfg1.N = 20 := N_1; have h3 := p.isLt; omega⟩

/-- The layer of the arrays the region finds. -/
abbrev G (c : Dev nD) : S100000x128.Idx → Elt Ideal .f32 :=
  Cert.Lib.DenseLayer.affine (n := 100000) (a := 128) (b := 128) (V c main_v40) (V c main_v27) (V c main_arg5) (fun i => V c main_v41 (ix2 (0 : Fin 1) (i 0))) (V c main_arg7)

theorem read0 (c : Dev nD) (t : Fin cfg1.N) (p : Fin 5000) (k : Fin 128) :
    (iblk1 V c 0 t : Vec Ideal S5000x128 .f32) (ix2 p k) = (V c main_v40 : S100000x128.Idx → Elt Ideal .f32) (ix2 (row t p) k) := by
  obtain ⟨e0, e1, -⟩ := idx_facts t
  unfold iblk1
  rw [View.read_apply]
  show V c main_v40 _ = V c main_v40 _
  congr 1
  funext ax
  apply Fin.ext
  match ax with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem read1 (c : Dev nD) (t : Fin cfg1.N) (p : Fin 5000) (k : Fin 128) :
    (iblk1 V c 1 t : Vec Ideal S5000x128 .f32) (ix2 p k) = (V c main_v27 : S100000x128.Idx → Elt Ideal .f32) (ix2 (row t p) k) := by
  obtain ⟨-, -, e0, e1, -⟩ := idx_facts t
  unfold iblk1
  rw [View.read_apply]
  show V c main_v27 _ = V c main_v27 _
  congr 1
  funext ax
  apply Fin.ext
  match ax with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem read2 (c : Dev nD) (t : Fin cfg1.N) (k : Fin 128) (q : Fin 128) :
    (iblk1 V c 2 t : Vec Ideal S128x128 .f32) (ix2 k q) = (V c main_arg5 : S128x128.Idx → Elt Ideal .f32) (ix2 k q) := by
  obtain ⟨-, -, -, -, e0, e1, -⟩ := idx_facts t
  unfold iblk1
  rw [View.read_apply]
  show V c main_arg5 _ = V c main_arg5 _
  congr 1
  funext ax
  apply Fin.ext
  match ax with
  | ⟨0, _⟩ => show win1_2.index t (0 : Fin 2) * 128 + 1 * k.val = k.val; rw [e0]; omega
  | ⟨1, _⟩ => show win1_2.index t (1 : Fin 2) * 128 + 1 * q.val = q.val; rw [e1]; omega

theorem read3 (c : Dev nD) (t : Fin cfg1.N) (u : Fin 1) (q : Fin 128) :
    (iblk1 V c 3 t : Vec Ideal S1x128 .f32) (ix2 u q) = (V c main_v41 : S1x128.Idx → Elt Ideal .f32) (ix2 u q) := by
  obtain ⟨-, -, -, -, -, -, e0, e1, -⟩ := idx_facts t
  unfold iblk1
  rw [View.read_apply]
  show V c main_v41 _ = V c main_v41 _
  congr 1
  funext ax
  apply Fin.ext
  match ax with
  | ⟨0, _⟩ => show win1_3.index t (0 : Fin 2) * 1 + 1 * u.val = u.val; rw [e0]; omega
  | ⟨1, _⟩ => show win1_3.index t (1 : Fin 2) * 128 + 1 * q.val = q.val; rw [e1]; omega

theorem read4 (c : Dev nD) (t : Fin cfg1.N) (k : Fin 128) (q : Fin 128) :
    (iblk1 V c 4 t : Vec Ideal S128x128 .f32) (ix2 k q) = (V c main_arg7 : S128x128.Idx → Elt Ideal .f32) (ix2 k q) := by
  obtain ⟨-, -, -, -, -, -, -, -, e0, e1, -⟩ := idx_facts t
  unfold iblk1
  rw [View.read_apply]
  show V c main_arg7 _ = V c main_arg7 _
  congr 1
  funext ax
  apply Fin.ext
  match ax with
  | ⟨0, _⟩ => show win1_4.index t (0 : Fin 2) * 128 + 1 * k.val = k.val; rw [e0]; omega
  | ⟨1, _⟩ => show win1_4.index t (1 : Fin 2) * 128 + 1 * q.val = q.val; rw [e1]; omega

/-- Entry (p, q) of the output's block t is entry (5000·t + p, q) of the array. -/
theorem emb5 (t : Fin cfg1.N) (p : Fin 5000) (q : Fin 128) :
    ((cfg1.win 5).blk t).view.emb (ix2 p q : S5000x128.Idx) = (ix2 (row t p) q : S100000x128.Idx) := by
  obtain ⟨-, -, -, -, -, -, -, -, -, -, e0, e1⟩ := idx_facts t
  funext ax
  apply Fin.ext
  match ax with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- What point t writes back is block t of the layer of the arrays the region found. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  refine funext fun (y : S5000x128.Idx) => ?_
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 4 t) (iblk1 V c 3 t) (ix2 p q)
    = G V c (((cfg1.win 5).blk t).view.emb (ix2 p q : S5000x128.Idx))
  refine (pay1_read _ _ _ _ _ p q).trans ?_
  rw [emb5]
  refine Eq.trans ?_ (Cert.Lib.DenseLayer.affine_apply (n := 100000) (a := 128) (b := 128) _ _ _ _ _ (row t p) q).symm
  simp only [read0, read1, read2, read3, read4]
  try rfl

/-- Every row of the array lies in the block of the point its number divided by 5000 names. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by omega⟩
  have ht : t.val = (i 0).val / 5000 := rfl
  obtain ⟨-, -, -, -, -, -, -, -, -, -, e0, e1⟩ := idx_facts t
  refine ⟨t, flush1_5 t, ?_⟩
  show i ∈ ((View.whole main_v42).slice (win1_5.rect t)).set
  rw [View.set_slice_whole, Rect.mem_set_unit]
  intro ax
  match ax with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- The array the region leaves is the layer of the arrays it found. -/
theorem final (c : Dev nD) : (dat1 V c).arrAt 5 cfg1.N = G V c :=
  (dat1 V c).arrAt_eq_of_cover 5 (G V c) (fun t _ => flushed_eq V c t) (cover)

end Cert.KernelIdeal.Blocks1

end
-- ==== Proof.KerBlocks2.lean ====
/- The third layer's region, from blocks to the array.  Grid point t loads rows 5000·t … 5000·t + 4999 of the
   two node matrices and the whole of the two weight matrices and of the bias row, and writes back rows
   5000·t … 5000·t + 4999 of the result; the twenty row blocks tile the 100000 rows, so the array the region
   leaves is the closed-form layer of the arrays the region found. -/
import proofs.«101241_j35278861369955_1_alg».proof.Proof.Gen.KernelIdeal.Frame
import proofs.«101241_j35278861369955_1_alg».proof.Proof.KerBody
import proofs.«101241_j35278861369955_1_alg».proof.Proof.LibDenseLayer
import Idealize.ShloMosaic.Lib.Pipeline.Value

set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows follow the point, the weights and
    the bias stay at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is row 5000·t + p of the array. -/
def row (t : Fin cfg2.N) (p : Fin 5000) : Fin 100000 :=
  ⟨t.val * 5000 + p.val, by have h1 := t.isLt; have h2 : cfg2.N = 20 := N_2; have h3 := p.isLt; omega⟩

/-- The layer of the arrays the region finds. -/
abbrev G (c : Dev nD) : S100000x64.Idx → Elt Ideal .f32 :=
  Cert.Lib.DenseLayer.affine (n := 100000) (a := 128) (b := 64) (V c main_v55) (V c main_v42) (V c main_arg8) (fun i => V c main_v56 (ix2 (0 : Fin 1) (i 0))) (V c main_arg10)

theorem read0 (c : Dev nD) (t : Fin cfg2.N) (p : Fin 5000) (k : Fin 128) :
    (iblk2 V c 0 t : Vec Ideal S5000x128 .f32) (ix2 p k) = (V c main_v55 : S100000x128.Idx → Elt Ideal .f32) (ix2 (row t p) k) := by
  obtain ⟨e0, e1, -⟩ := idx_facts t
  unfold iblk2
  rw [View.read_apply]
  show V c main_v55 _ = V c main_v55 _
  congr 1
  funext ax
  apply Fin.ext
  match ax with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem read1 (c : Dev nD) (t : Fin cfg2.N) (p : Fin 5000) (k : Fin 128) :
    (iblk2 V c 1 t : Vec Ideal S5000x128 .f32) (ix2 p k) = (V c main_v42 : S100000x128.Idx → Elt Ideal .f32) (ix2 (row t p) k) := by
  obtain ⟨-, -, e0, e1, -⟩ := idx_facts t
  unfold iblk2
  rw [View.read_apply]
  show V c main_v42 _ = V c main_v42 _
  congr 1
  funext ax
  apply Fin.ext
  match ax with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

theorem read2 (c : Dev nD) (t : Fin cfg2.N) (k : Fin 128) (q : Fin 64) :
    (iblk2 V c 2 t : Vec Ideal S128x64 .f32) (ix2 k q) = (V c main_arg8 : S128x64.Idx → Elt Ideal .f32) (ix2 k q) := by
  obtain ⟨-, -, -, -, e0, e1, -⟩ := idx_facts t
  unfold iblk2
  rw [View.read_apply]
  show V c main_arg8 _ = V c main_arg8 _
  congr 1
  funext ax
  apply Fin.ext
  match ax with
  | ⟨0, _⟩ => show win2_2.index t (0 : Fin 2) * 128 + 1 * k.val = k.val; rw [e0]; omega
  | ⟨1, _⟩ => show win2_2.index t (1 : Fin 2) * 64 + 1 * q.val = q.val; rw [e1]; omega

theorem read3 (c : Dev nD) (t : Fin cfg2.N) (u : Fin 1) (q : Fin 64) :
    (iblk2 V c 3 t : Vec Ideal S1x64 .f32) (ix2 u q) = (V c main_v56 : S1x64.Idx → Elt Ideal .f32) (ix2 u q) := by
  obtain ⟨-, -, -, -, -, -, e0, e1, -⟩ := idx_facts t
  unfold iblk2
  rw [View.read_apply]
  show V c main_v56 _ = V c main_v56 _
  congr 1
  funext ax
  apply Fin.ext
  match ax with
  | ⟨0, _⟩ => show win2_3.index t (0 : Fin 2) * 1 + 1 * u.val = u.val; rw [e0]; omega
  | ⟨1, _⟩ => show win2_3.index t (1 : Fin 2) * 64 + 1 * q.val = q.val; rw [e1]; omega

theorem read4 (c : Dev nD) (t : Fin cfg2.N) (k : Fin 128) (q : Fin 64) :
    (iblk2 V c 4 t : Vec Ideal S128x64 .f32) (ix2 k q) = (V c main_arg10 : S128x64.Idx → Elt Ideal .f32) (ix2 k q) := by
  obtain ⟨-, -, -, -, -, -, -, -, e0, e1, -⟩ := idx_facts t
  unfold iblk2
  rw [View.read_apply]
  show V c main_arg10 _ = V c main_arg10 _
  congr 1
  funext ax
  apply Fin.ext
  match ax with
  | ⟨0, _⟩ => show win2_4.index t (0 : Fin 2) * 128 + 1 * k.val = k.val; rw [e0]; omega
  | ⟨1, _⟩ => show win2_4.index t (1 : Fin 2) * 64 + 1 * q.val = q.val; rw [e1]; omega

/-- Entry (p, q) of the output's block t is entry (5000·t + p, q) of the array. -/
theorem emb5 (t : Fin cfg2.N) (p : Fin 5000) (q : Fin 64) :
    ((cfg2.win 5).blk t).view.emb (ix2 p q : S5000x64.Idx) = (ix2 (row t p) q : S100000x64.Idx) := by
  obtain ⟨-, -, -, -, -, -, -, -, -, -, e0, e1⟩ := idx_facts t
  funext ax
  apply Fin.ext
  match ax with
  | ⟨0, _⟩ => show win2_5.index t (0 : Fin 2) * 5000 + 1 * p.val = t.val * 5000 + p.val; rw [e0]; omega
  | ⟨1, _⟩ => show win2_5.index t (1 : Fin 2) * 64 + 1 * q.val = q.val; rw [e1]; omega

/-- What point t writes back is block t of the layer of the arrays the region found. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  refine funext fun (y : S5000x64.Idx) => ?_
  obtain ⟨p, q, rfl⟩ : ∃ (p : Fin 5000) (q : Fin 64), y = ix2 p q := ⟨y 0, y 1, eq_ix2 y⟩
  show k2_pay1 (F := Ideal) (iblk2 V c 0 t) (iblk2 V c 1 t) (iblk2 V c 2 t) (iblk2 V c 4 t) (iblk2 V c 3 t) (ix2 p q)
    = G V c (((cfg2.win 5).blk t).view.emb (ix2 p q : S5000x64.Idx))
  refine (pay2_read _ _ _ _ _ p q).trans ?_
  rw [emb5]
  refine Eq.trans ?_ (Cert.Lib.DenseLayer.affine_apply (n := 100000) (a := 128) (b := 64) _ _ _ _ _ (row t p) q).symm
  simp only [read0, read1, read2, read3, read4]
  try rfl

/-- Every row of the array lies in the block of the point its number divided by 5000 names. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by omega⟩
  have ht : t.val = (i 0).val / 5000 := rfl
  obtain ⟨-, -, -, -, -, -, -, -, -, -, e0, e1⟩ := idx_facts t
  refine ⟨t, flush2_5 t, ?_⟩
  show i ∈ ((View.whole main_v57).slice (win2_5.rect t)).set
  rw [View.set_slice_whole, Rect.mem_set_unit]
  intro ax
  match ax with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

/-- The array the region leaves is the layer of the arrays it found. -/
theorem final (c : Dev nD) : (dat2 V c).arrAt 5 cfg2.N = G V c :=
  (dat2 V c).arrAt_eq_of_cover 5 (G V c) (fun t _ => flushed_eq V c t) (cover)

end Cert.KernelIdeal.Blocks2

end
-- ==== Proof.Spec.lean ====
/- The graph-convolution network both programs compute, written once over the host operations themselves.
   An edge list e (two rows of node numbers: sources, then targets) fixes, for every layer, the row gather by the
   (wrapped) source numbers and the accumulating scatter by the target numbers; the number of edges arriving at a
   node, floored at one, divides the scattered sum.  One program divides the sum by that count, the other
   multiplies it by the count's reciprocal: `meanDiv` and `meanMul`.  A layer then maps (mean, h) to
   max(mean · Wl + bl + h · Wr, 0). -/
import proofs.«101241_j35278861369955_1_alg».proof.Proof.Gen.ReferenceIdeal
import Idealize.ShloMosaic.PureOps.Ideal

noncomputable section

namespace Cert.Sage

open Idealize.ShloMosaic Cert.ReferenceIdeal Cert.ReferenceIdeal.Gen

abbrev EdgeList := (⟨S2x1600000, .i32⟩ : BufTy).Contents (Elt Ideal)

/-- The target node of every edge, as a one-column index matrix. -/
def dstIdx (e : EdgeList) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The source node of every edge (a negative number wrapped once by the node count), as a one-column index matrix. -/
def srcIdx (e : EdgeList) : IVec S1600000x1 32 :=
  broadcastInDim S1600000x1 ![0] bcast_S1600000_S1600000x1_0
    (select (cmpi .slt (shapeCast _ (extractStridedSlice S1x1600000 ![0, 0] e slices_S2x1600000_S1x1600000_0_0) shapeCasts_S1x1600000_S1600000)
        (broadcastInDim S1600000 ![] bcast_S_S1600000 (constantI S_ 32 0#32)))
      (addi (shapeCast _ (extractStridedSlice S1x1600000 ![0, 0] e slices_S2x1600000_S1x1600000_0_0) shapeCasts_S1x1600000_S1600000)
        (broadcastInDim S1600000 ![] bcast_S_S1600000 (constantI S_ 32 100000#32)))
      (shapeCast _ (extractStridedSlice S1x1600000 ![0, 0] e slices_S2x1600000_S1x1600000_0_0) shapeCasts_S1x1600000_S1600000))

/-- The number of edges arriving at each node, floored at one. -/
def deg (e : EdgeList) : FVec Ideal S100000 .f32 :=
  maximumf (Host.scatterAdd (F := Ideal) scatter_S100000_S1600000x1_S1600000_n_0_0_1
      (broadcastInDim S100000 ![] bcast_S_S100000 (constant (F := Ideal) S_ .f32 0x00000000#32)) (dstIdx e)
      (broadcastInDim S1600000 ![] bcast_S_S1600000 (constant (F := Ideal) S_ .f32 0x3F800000#32)))
    (broadcastInDim S100000 ![] bcast_S_S100000 (constant (F := Ideal) S_ .f32 0x3F800000#32))

/-- The sum, at each node, of the feature rows of the sources of its arriving edges: six features. -/
def sum6 (e : EdgeList) (h : FVec Ideal S100000x6 .f32) : FVec Ideal S100000x6 .f32 :=
  Host.scatterAdd (F := Ideal) scatter_S100000x6_S1600000x1_S1600000x6_1_0_0_1
    (broadcastInDim S100000x6 ![] bcast_S_S100000x6 (constant (F := Ideal) S_ .f32 0x00000000#32)) (dstIdx e)
    (Host.gather gather_S100000x6_S1600000x1_S1600000x6_1_0_n_n_0_1_16 h (srcIdx e))

/-- The same sum over 128 features. -/
def sum128 (e : EdgeList) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstIdx e)
    (Host.gather gather_S100000x128_S1600000x1_S1600000x128_1_0_n_n_0_1_1128 h (srcIdx e))

/-- A node sum divided by the node's count: six features. -/
def meanDiv6 (d : FVec Ideal S100000 .f32) (s : FVec Ideal S100000x6 .f32) : FVec Ideal S100000x6 .f32 :=
  Host.divf (F := Ideal) s (broadcastInDim S100000x6 ![0, 1] bcast_S100000x1_S100000x6_0_1 (broadcastInDim S100000x1 ![0] bcast_S100000_S100000x1_0 d))

/-- A node sum multiplied by the reciprocal of the node's count: six features. -/
def meanMul6 (d : FVec Ideal S100000 .f32) (s : FVec Ideal S100000x6 .f32) : FVec Ideal S100000x6 .f32 :=
  mulf s (broadcastInDim S100000x6 ![0, 1] bcast_S100000x1_S100000x6_0_1 (broadcastInDim S100000x1 ![0] bcast_S100000_S100000x1_0
    (Host.divf (F := Ideal) (broadcastInDim S100000 ![] bcast_S_S100000 (constant (F := Ideal) S_ .f32 0x3F800000#32)) d)))

/-- A node sum divided by the node's count: 128 features. -/
def meanDiv128 (d : FVec Ideal S100000 .f32) (s : FVec Ideal S100000x128 .f32) : FVec Ideal S100000x128 .f32 :=
  Host.divf (F := Ideal) s (broadcastInDim S100000x128 ![0, 1] bcast_S100000x1_S100000x128_0_1 (broadcastInDim S100000x1 ![0] bcast_S100000_S100000x1_0 d))

/-- A node sum multiplied by the reciprocal of the node's count: 128 features. -/
def meanMul128 (d : FVec Ideal S100000 .f32) (s : FVec Ideal S100000x128 .f32) : FVec Ideal S100000x128 .f32 :=
  mulf s (broadcastInDim S100000x128 ![0, 1] bcast_S100000x1_S100000x128_0_1 (broadcastInDim S100000x1 ![0] bcast_S100000_S100000x1_0
    (Host.divf (F := Ideal) (broadcastInDim S100000 ![] bcast_S_S100000 (constant (F := Ideal) S_ .f32 0x3F800000#32)) d)))

/-- The first layer on the host: max(mean · Wl + bl + h · Wr, 0), 6 features to 128. -/
def hostLayer0 (mean h : FVec Ideal S100000x6 .f32) (wl : FVec Ideal S6x128 .f32) (bl : FVec Ideal S128 .f32) (wr : FVec Ideal S6x128 .f32) :
    FVec Ideal S100000x128 .f32 :=
  maximumf (addf (addf (Host.dotGeneral (F := Ideal) dot_S100000x6_S6x128_S100000x128_1_0_0_1_n_n none mean wl)
      (broadcastInDim S100000x128 ![0, 1] bcast_S1x128_S100000x128_0_1 (broadcastInDim S1x128 ![1] bcast_S128_S1x128_1 bl)))
      (Host.dotGeneral (F := Ideal) dot_S100000x6_S6x128_S100000x128_1_0_0_1_n_n none h wr))
    (broadcastInDim S100000x128 ![] bcast_S_S100000x128 (constant (F := Ideal) S_ .f32 0x00000000#32))

/-- The second layer on the host, 128 features to 128. -/
def hostLayer1 (mean h : FVec Ideal S100000x128 .f32) (wl : FVec Ideal S128x128 .f32) (bl : FVec Ideal S128 .f32) (wr : FVec Ideal S128x128 .f32) :
    FVec Ideal S100000x128 .f32 :=
  maximumf (addf (addf (Host.dotGeneral (F := Ideal) dot_S100000x128_S128x128_S100000x128_1_0_0_1_n_n none mean wl)
      (broadcastInDim S100000x128 ![0, 1] bcast_S1x128_S100000x128_0_1 (broadcastInDim S1x128 ![1] bcast_S128_S1x128_1 bl)))
      (Host.dotGeneral (F := Ideal) dot_S100000x128_S128x128_S100000x128_1_0_0_1_n_n none h wr))
    (broadcastInDim S100000x128 ![] bcast_S_S100000x128 (constant (F := Ideal) S_ .f32 0x00000000#32))

/-- The third layer on the host, 128 features to 64. -/
def hostLayer2 (mean h : FVec Ideal S100000x128 .f32) (wl : FVec Ideal S128x64 .f32) (bl : FVec Ideal S64 .f32) (wr : FVec Ideal S128x64 .f32) :
    FVec Ideal S100000x64 .f32 :=
  maximumf (addf (addf (Host.dotGeneral (F := Ideal) dot_S100000x128_S128x64_S100000x64_1_0_0_1_n_n none mean wl)
      (broadcastInDim S100000x64 ![0, 1] bcast_S1x64_S100000x64_0_1 (broadcastInDim S1x64 ![1] bcast_S64_S1x64_1 bl)))
      (Host.dotGeneral (F := Ideal) dot_S100000x128_S128x64_S100000x64_1_0_0_1_n_n none h wr))
    (broadcastInDim S100000x64 ![] bcast_S_S100000x64 (constant (F := Ideal) S_ .f32 0x00000000#32))

/-- The node features the network starts from: columns 4 to 9 of the input. -/
def feat0 (x : FVec Ideal S100000x10 .f32) : FVec Ideal S100000x6 .f32 :=
  extractStridedSlice S100000x6 ![0, 4] x slices_S100000x10_S100000x6_0_4

/-- The whole network with the sums divided by the counts. -/
def netDiv (x : FVec Ideal S100000x10 .f32) (e : EdgeList) (wl0 : FVec Ideal S6x128 .f32) (bl0 : FVec Ideal S128 .f32) (wr0 : FVec Ideal S6x128 .f32)
    (wl1 : FVec Ideal S128x128 .f32) (bl1 : FVec Ideal S128 .f32) (wr1 : FVec Ideal S128x128 .f32)
    (wl2 : FVec Ideal S128x64 .f32) (bl2 : FVec Ideal S64 .f32) (wr2 : FVec Ideal S128x64 .f32) : FVec Ideal S100000x64 .f32 :=
  hostLayer2 (meanDiv128 (deg e) (sum128 e
      (hostLayer1 (meanDiv128 (deg e) (sum128 e (hostLayer0 (meanDiv6 (deg e) (sum6 e (feat0 x))) (feat0 x) wl0 bl0 wr0)))
        (hostLayer0 (meanDiv6 (deg e) (sum6 e (feat0 x))) (feat0 x) wl0 bl0 wr0) wl1 bl1 wr1)))
    (hostLayer1 (meanDiv128 (deg e) (sum128 e (hostLayer0 (meanDiv6 (deg e) (sum6 e (feat0 x))) (feat0 x) wl0 bl0 wr0)))
      (hostLayer0 (meanDiv6 (deg e) (sum6 e (feat0 x))) (feat0 x) wl0 bl0 wr0) wl1 bl1 wr1) wl2 bl2 wr2

end Cert.Sage

end
-- ==== Proof.Bridge.lean ====
/- The network with the sums multiplied by the reciprocal counts, each layer in closed form, is the network
   with the sums divided by the counts, each layer by host operations: no count is zero, so every product with a
   reciprocal is the quotient, and every host layer read at an entry is the closed form. -/
import proofs.«101241_j35278861369955_1_alg».proof.Proof.Spec
import proofs.«101241_j35278861369955_1_alg».proof.Proof.LibDenseLayer

noncomputable section

namespace Cert.Sage

open Idealize.ShloMosaic Idealize.ShloMosaic.ValueIdx Cert.ReferenceIdeal Cert.ReferenceIdeal.Gen Cert.Lib.DenseLayer
open scoped BigOperators

/-- No node's floored count is zero. -/
theorem deg_ne_zero (e : EdgeList) (i : S100000.Idx) : deg e i ≠ 0 := by
  unfold deg
  rw [maximumf_apply, Cert.Lib.HostMatRead.splat_read, constant_apply, one_word]
  exact max_one_ne_zero _

theorem meanMul6_eq (e : EdgeList) (s : FVec Ideal S100000x6 .f32) : meanMul6 (deg e) s = meanDiv6 (deg e) s := by
  unfold meanMul6 meanDiv6
  exact mul_recip_rows (a := 100000) (b := 6) (deg e) s _ _ _ (deg_ne_zero e)

theorem meanMul128_eq (e : EdgeList) (s : FVec Ideal S100000x128 .f32) : meanMul128 (deg e) s = meanDiv128 (deg e) s := by
  unfold meanMul128 meanDiv128
  exact mul_recip_rows (a := 100000) (b := 128) (deg e) s _ _ _ (deg_ne_zero e)

theorem hostLayer0_eq (mean h : FVec Ideal S100000x6 .f32) (wl : FVec Ideal S6x128 .f32) (bl : FVec Ideal S128 .f32) (wr : FVec Ideal S6x128 .f32) :
    hostLayer0 mean h wl bl wr = affine (n := 100000) (a := 6) (b := 128) mean h wl bl wr := by
  unfold hostLayer0
  exact hostLayer_read (n := 100000) (a := 6) (b := 128) mean h wl bl wr _ _ _

theorem hostLayer1_eq (mean h : FVec Ideal S100000x128 .f32) (wl : FVec Ideal S128x128 .f32) (bl : FVec Ideal S128 .f32) (wr : FVec Ideal S128x128 .f32) :
    hostLayer1 mean h wl bl wr = affine (n := 100000) (a := 128) (b := 128) mean h wl bl wr := by
  unfold hostLayer1
  exact hostLayer_read (n := 100000) (a := 128) (b := 128) mean h wl bl wr _ _ _

theorem hostLayer2_eq (mean h : FVec Ideal S100000x128 .f32) (wl : FVec Ideal S128x64 .f32) (bl : FVec Ideal S64 .f32) (wr : FVec Ideal S128x64 .f32) :
    hostLayer2 mean h wl bl wr = affine (n := 100000) (a := 128) (b := 64) mean h wl bl wr := by
  unfold hostLayer2
  exact hostLayer_read (n := 100000) (a := 128) (b := 64) mean h wl bl wr _ _ _

/-- The first layer's output with the reciprocal counts and the closed-form layer. -/
def out0 (x : FVec Ideal S100000x10 .f32) (e : EdgeList) (wl0 : FVec Ideal S6x128 .f32) (bl0 : FVec Ideal S128 .f32) (wr0 : FVec Ideal S6x128 .f32) :
    FVec Ideal S100000x128 .f32 :=
  affine (n := 100000) (a := 6) (b := 128) (meanMul6 (deg e) (sum6 e (feat0 x))) (feat0 x) wl0 bl0 wr0

/-- The second layer's output, likewise, of the first's. -/
def out1 (e : EdgeList) (h : FVec Ideal S100000x128 .f32) (wl1 : FVec Ideal S128x128 .f32) (bl1 : FVec Ideal S128 .f32) (wr1 : FVec Ideal S128x128 .f32) :
    FVec Ideal S100000x128 .f32 :=
  affine (n := 100000) (a := 128) (b := 128) (meanMul128 (deg e) (sum128 e h)) h wl1 bl1 wr1

/-- The third layer's output, likewise, of the second's. -/
def out2 (e : EdgeList) (h : FVec Ideal S100000x128 .f32) (wl2 : FVec Ideal S128x64 .f32) (bl2 : FVec Ideal S64 .f32) (wr2 : FVec Ideal S128x64 .f32) :
    FVec Ideal S100000x64 .f32 :=
  affine (n := 100000) (a := 128) (b := 64) (meanMul128 (deg e) (sum128 e h)) h wl2 bl2 wr2

/-- The two networks are one function of the arguments. -/
theorem net_eq (x : FVec Ideal S100000x10 .f32) (e : EdgeList) (wl0 : FVec Ideal S6x128 .f32) (bl0 : FVec Ideal S128 .f32) (wr0 : FVec Ideal S6x128 .f32)
    (wl1 : FVec Ideal S128x128 .f32) (bl1 : FVec Ideal S128 .f32) (wr1 : FVec Ideal S128x128 .f32)
    (wl2 : FVec Ideal S128x64 .f32) (bl2 : FVec Ideal S64 .f32) (wr2 : FVec Ideal S128x64 .f32) :
    out2 e (out1 e (out0 x e wl0 bl0 wr0) wl1 bl1 wr1) wl2 bl2 wr2 = netDiv x e wl0 bl0 wr0 wl1 bl1 wr1 wl2 bl2 wr2 := by
  unfold out2 out1 out0 netDiv
  rw [meanMul6_eq, ← hostLayer0_eq, meanMul128_eq, ← hostLayer1_eq, meanMul128_eq, ← hostLayer2_eq]

end Cert.Sage

end
-- ==== Proof.KerValue.lean ====
/- What each boundary of the program holds, as a function of the launch memory (at the ideal instance).
   The first host stretch computes the edge rows, the reciprocal of the floored counts, the feature columns and
   the first mean; each region leaves its closed-form layer of what it found; each later stretch gathers and
   scatters the layer before it and multiplies by the same reciprocals.  The result buffer ends holding the third
   layer of the second of the first. -/
import proofs.«101241_j35278861369955_1_alg».proof.Proof.Gen.KernelIdeal.Frame
import proofs.«101241_j35278861369955_1_alg».proof.Proof.KerBlocks0
import proofs.«101241_j35278861369955_1_alg».proof.Proof.KerBlocks1
import proofs.«101241_j35278861369955_1_alg».proof.Proof.KerBlocks2
import proofs.«101241_j35278861369955_1_alg».proof.Proof.Bridge
import Idealize.ShloMosaic.Lib.StableHlo.Run
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The launch contents of the arguments. -/
abbrev aX : FVec Ideal S100000x10 .f32 := m ((c : Thread nD τ).loc main_arg0)
abbrev aE : IVec S2x1600000 32 := m ((c : Thread nD τ).loc main_arg1)
abbrev aWl0 : FVec Ideal S6x128 .f32 := m ((c : Thread nD τ).loc main_arg2)
abbrev aBl0 : FVec Ideal S128 .f32 := m ((c : Thread nD τ).loc main_arg3)
abbrev aWr0 : FVec Ideal S6x128 .f32 := m ((c : Thread nD τ).loc main_arg4)
abbrev aWl1 : FVec Ideal S128x128 .f32 := m ((c : Thread nD τ).loc main_arg5)
abbrev aBl1 : FVec Ideal S128 .f32 := m ((c : Thread nD τ).loc main_arg6)
abbrev aWr1 : FVec Ideal S128x128 .f32 := m ((c : Thread nD τ).loc main_arg7)
abbrev aWl2 : FVec Ideal S128x64 .f32 := m ((c : Thread nD τ).loc main_arg8)
abbrev aBl2 : FVec Ideal S64 .f32 := m ((c : Thread nD τ).loc main_arg9)
abbrev aWr2 : FVec Ideal S128x64 .f32 := m ((c : Thread nD τ).loc main_arg10)

/-- The sources' row and the targets' row of the edge list, and the reciprocals of the floored counts. -/
abbrev srcRow (e : IVec S2x1600000 32) : IVec S1600000 32 :=
  shapeCast S1600000 (extractStridedSlice S1x1600000 ![0, 0] e slices_S2x1600000_S1x1600000_0_0) shapeCasts_S1x1600000_S1600000
abbrev dstRow (e : IVec S2x1600000 32) : IVec S1600000 32 :=
  shapeCast S1600000 (extractStridedSlice S1x1600000 ![1, 0] e slices_S2x1600000_S1x1600000_1_0) shapeCasts_S1x1600000_S1600000
abbrev recip (e : IVec S2x1600000 32) : FVec Ideal S100000 .f32 :=
  Host.divf (F := Ideal) (broadcastInDim S100000 ![] bcast_S_S100000 (constant (F := Ideal) S_ .f32 0x3F800000#32)) (Cert.Sage.deg e)

/-- A vector made a one-row matrix, read along its row, is the vector. -/
theorem bias_row {b : ℕ} (v : FVec Ideal ⟨1, ![b]⟩ .f32) (h : (⟨1, ![b]⟩ : Shape).ShapeCasts ⟨2, ![1, b]⟩) :
    (fun i : (⟨1, ![b]⟩ : Shape).Idx => shapeCast ⟨2, ![1, b]⟩ v h (ix2 (0 : Fin 1) (i 0))) = v := by
  funext i
  refine (shapeCast_a_1a_apply v h (0 : Fin 1) (i 0)).trans ?_
  exact congrArg v (eq_ix1 i).symm

/-! ## After the first host stretch -/

theorem w1_v1 : (W1 m ρ c (Proc.devRef .tc main_v1) : S1600000.Idx → BitVec 32) = srcRow (aE m c) := by
  show StableHlo.after hostOps0 _ _ = _; after_results; rfl
theorem w1_v3 : (W1 m ρ c (Proc.devRef .tc main_v3) : S1600000.Idx → BitVec 32) = dstRow (aE m c) := by
  show StableHlo.after hostOps0 _ _ = _; after_results; rfl
theorem w1_v11 : (W1 m ρ c (Proc.devRef .tc main_v11) : S100000.Idx → EReal) = recip (aE m c) := by
  show StableHlo.after hostOps0 _ _ = _; after_results; rfl
theorem w1_v12 : (W1 m ρ c (Proc.devRef .tc main_v12) : S100000x6.Idx → EReal) = Cert.Sage.feat0 (aX m c) := by
  show StableHlo.after hostOps0 _ _ = _; after_results; rfl
theorem w1_v25 : (W1 m ρ c (Proc.devRef .tc main_v25) : S100000x6.Idx → EReal)
    = Cert.Sage.meanMul6 (Cert.Sage.deg (aE m c)) (Cert.Sage.sum6 (aE m c) (Cert.Sage.feat0 (aX m c))) := by
  show StableHlo.after hostOps0 _ _ = _; after_results_simp; rfl
theorem w1_v26 : (W1 m ρ c (Proc.devRef .tc main_v26) : S1x128.Idx → EReal) = shapeCast S1x128 (aBl0 m c) shapeCasts_S128_S1x128 := by
  show StableHlo.after hostOps0 _ _ = _; after_results; rfl
theorem w1_arg2 : (W1 m ρ c (Proc.devRef .tc main_arg2) : S6x128.Idx → EReal) = aWl0 m c := by
  show StableHlo.after hostOps0 _ _ = _; after_results
theorem w1_arg4 : (W1 m ρ c (Proc.devRef .tc main_arg4) : S6x128.Idx → EReal) = aWr0 m c := by
  show StableHlo.after hostOps0 _ _ = _; after_results

/-! ## After the first region -/

/-- The first layer's output. -/
abbrev h1 : FVec Ideal S100000x128 .f32 := Cert.Sage.out0 (aX m c) (aE m c) (aWl0 m c) (aBl0 m c) (aWr0 m c)

theorem w2_v27 : (W2 m ρ c (Proc.devRef .tc main_v27) : S100000x128.Idx → EReal) = h1 m c := by
  refine (W2_arr m ρ c 5).trans ((Cert.KernelIdeal.Blocks0.final (V1 m ρ) c).trans ?_)
  show Cert.Lib.DenseLayer.affine (W1 m ρ c (Proc.devRef .tc main_v25)) (W1 m ρ c (Proc.devRef .tc main_v12)) (W1 m ρ c (Proc.devRef .tc main_arg2))
    (fun i => W1 m ρ c (Proc.devRef .tc main_v26) (ix2 (0 : Fin 1) (i 0))) (W1 m ρ c (Proc.devRef .tc main_arg4)) = _
  rw [w1_v25, w1_v12, w1_arg2, w1_v26, w1_arg4, bias_row]
  rfl
theorem w2_v1 : (W2 m ρ c (Proc.devRef .tc main_v1) : S1600000.Idx → BitVec 32) = srcRow (aE m c) :=
  (W2_of_ne m ρ c main_v1 (by decide)).trans (w1_v1 m ρ c)
theorem w2_v3 : (W2 m ρ c (Proc.devRef .tc main_v3) : S1600000.Idx → BitVec 32) = dstRow (aE m c) :=
  (W2_of_ne m ρ c main_v3 (by decide)).trans (w1_v3 m ρ c)
theorem w2_v11 : (W2 m ρ c (Proc.devRef .tc main_v11) : S100000.Idx → EReal) = recip (aE m c) :=
  (W2_of_ne m ρ c main_v11 (by decide)).trans (w1_v11 m ρ c)
theorem w2_arg5 : (W2 m ρ c (Proc.devRef .tc main_arg5) : S128x128.Idx → EReal) = aWl1 m c := by
  refine (W2_of_ne m ρ c main_arg5 (by decide)).trans ?_
  show StableHlo.after hostOps0 _ _ = _; after_results
theorem w2_arg6 : (W2 m ρ c (Proc.devRef .tc main_arg6) : S128.Idx → EReal) = aBl1 m c := by
  refine (W2_of_ne m ρ c main_arg6 (by decide)).trans ?_
  show StableHlo.after hostOps0 _ _ = _; after_results
theorem w2_arg7 : (W2 m ρ c (Proc.devRef .tc main_arg7) : S128x128.Idx → EReal) = aWr1 m c := by
  refine (W2_of_ne m ρ c main_arg7 (by decide)).trans ?_
  show StableHlo.after hostOps0 _ _ = _; after_results
theorem w2_arg8 : (W2 m ρ c (Proc.devRef .tc main_arg8) : S128x64.Idx → EReal) = aWl2 m c := by
  refine (W2_of_ne m ρ c main_arg8 (by decide)).trans ?_
  show StableHlo.after hostOps0 _ _ = _; after_results
theorem w2_arg9 : (W2 m ρ c (Proc.devRef .tc main_arg9) : S64.Idx → EReal) = aBl2 m c := by
  refine (W2_of_ne m ρ c main_arg9 (by decide)).trans ?_
  show StableHlo.after hostOps0 _ _ = _; after_results
theorem w2_arg10 : (W2 m ρ c (Proc.devRef .tc main_arg10) : S128x64.Idx → EReal) = aWr2 m c := by
  refine (W2_of_ne m ρ c main_arg10 (by decide)).trans ?_
  show StableHlo.after hostOps0 _ _ = _; after_results

/-! ## After the second host stretch -/

theorem w3_v40 : (W3 m ρ c (Proc.devRef .tc main_v40) : S100000x128.Idx → EReal)
    = Cert.Sage.meanMul128 (Cert.Sage.deg (aE m c)) (Cert.Sage.sum128 (aE m c) (h1 m c)) := by
  show StableHlo.after hostOps1 _ _ = _; after_results_simp
  rw [w2_v1, w2_v3, w2_v11, w2_v27]
  rfl
theorem w3_v27 : (W3 m ρ c (Proc.devRef .tc main_v27) : S100000x128.Idx → EReal) = h1 m c := by
  show StableHlo.after hostOps1 _ _ = _; after_results; exact w2_v27 m ρ c
theorem w3_v41 : (W3 m ρ c (Proc.devRef .tc main_v41) : S1x128.Idx → EReal) = shapeCast S1x128 (aBl1 m c) shapeCasts_S128_S1x128 := by
  show StableHlo.after hostOps1 _ _ = _; after_results; rw [w2_arg6]; rfl
theorem w3_arg5 : (W3 m ρ c (Proc.devRef .tc main_arg5) : S128x128.Idx → EReal) = aWl1 m c := by
  show StableHlo.after hostOps1 _ _ = _; after_results; exact w2_arg5 m ρ c
theorem w3_arg7 : (W3 m ρ c (Proc.devRef .tc main_arg7) : S128x128.Idx → EReal) = aWr1 m c := by
  show StableHlo.after hostOps1 _ _ = _; after_results; exact w2_arg7 m ρ c
theorem w3_v1 : (W3 m ρ c (Proc.devRef .tc main_v1) : S1600000.Idx → BitVec 32) = srcRow (aE m c) := by
  show StableHlo.after hostOps1 _ _ = _; after_results; exact w2_v1 m ρ c
theorem w3_v3 : (W3 m ρ c (Proc.devRef .tc main_v3) : S1600000.Idx → BitVec 32) = dstRow (aE m c) := by
  show StableHlo.after hostOps1 _ _ = _; after_results; exact w2_v3 m ρ c
theorem w3_v11 : (W3 m ρ c (Proc.devRef .tc main_v11) : S100000.Idx → EReal) = recip (aE m c) := by
  show StableHlo.after hostOps1 _ _ = _; after_results; exact w2_v11 m ρ c
theorem w3_arg8 : (W3 m ρ c (Proc.devRef .tc main_arg8) : S128x64.Idx → EReal) = aWl2 m c := by
  show StableHlo.after hostOps1 _ _ = _; after_results; exact w2_arg8 m ρ c
theorem w3_arg9 : (W3 m ρ c (Proc.devRef .tc main_arg9) : S64.Idx → EReal) = aBl2 m c := by
  show StableHlo.after hostOps1 _ _ = _; after_results; exact w2_arg9 m ρ c
theorem w3_arg10 : (W3 m ρ c (Proc.devRef .tc main_arg10) : S128x64.Idx → EReal) = aWr2 m c := by
  show StableHlo.after hostOps1 _ _ = _; after_results; exact w2_arg10 m ρ c

/-! ## After the second region -/

/-- The second layer's output. -/
abbrev h2 : FVec Ideal S100000x128 .f32 := Cert.Sage.out1 (aE m c) (h1 m c) (aWl1 m c) (aBl1 m c) (aWr1 m c)

theorem w4_v42 : (W4 m ρ c (Proc.devRef .tc main_v42) : S100000x128.Idx → EReal) = h2 m c := by
  refine (W4_arr m ρ c 5).trans ((Cert.KernelIdeal.Blocks1.final (V3 m ρ) c).trans ?_)
  show Cert.Lib.DenseLayer.affine (W3 m ρ c (Proc.devRef .tc main_v40)) (W3 m ρ c (Proc.devRef .tc main_v27)) (W3 m ρ c (Proc.devRef .tc main_arg5))
    (fun i => W3 m ρ c (Proc.devRef .tc main_v41) (ix2 (0 : Fin 1) (i 0))) (W3 m ρ c (Proc.devRef .tc main_arg7)) = _
  rw [w3_v40, w3_v27, w3_arg5, w3_v41, w3_arg7, bias_row]
  rfl
theorem w4_v1 : (W4 m ρ c (Proc.devRef .tc main_v1) : S1600000.Idx → BitVec 32) = srcRow (aE m c) :=
  (W4_of_ne m ρ c main_v1 (by decide)).trans (w3_v1 m ρ c)
theorem w4_v3 : (W4 m ρ c (Proc.devRef .tc main_v3) : S1600000.Idx → BitVec 32) = dstRow (aE m c) :=
  (W4_of_ne m ρ c main_v3 (by decide)).trans (w3_v3 m ρ c)
theorem w4_v11 : (W4 m ρ c (Proc.devRef .tc main_v11) : S100000.Idx → EReal) = recip (aE m c) :=
  (W4_of_ne m ρ c main_v11 (by decide)).trans (w3_v11 m ρ c)
theorem w4_arg8 : (W4 m ρ c (Proc.devRef .tc main_arg8) : S128x64.Idx → EReal) = aWl2 m c :=
  (W4_of_ne m ρ c main_arg8 (by decide)).trans (w3_arg8 m ρ c)
theorem w4_arg9 : (W4 m ρ c (Proc.devRef .tc main_arg9) : S64.Idx → EReal) = aBl2 m c :=
  (W4_of_ne m ρ c main_arg9 (by decide)).trans (w3_arg9 m ρ c)
theorem w4_arg10 : (W4 m ρ c (Proc.devRef .tc main_arg10) : S128x64.Idx → EReal) = aWr2 m c :=
  (W4_of_ne m ρ c main_arg10 (by decide)).trans (w3_arg10 m ρ c)

/-! ## After the third host stretch -/

theorem w5_v55 : (W5 m ρ c (Proc.devRef .tc main_v55) : S100000x128.Idx → EReal)
    = Cert.Sage.meanMul128 (Cert.Sage.deg (aE m c)) (Cert.Sage.sum128 (aE m c) (h2 m c)) := by
  show StableHlo.after hostOps2 _ _ = _; after_results_simp
  rw [w4_v1, w4_v3, w4_v11, w4_v42]
  rfl
theorem w5_v42 : (W5 m ρ c (Proc.devRef .tc main_v42) : S100000x128.Idx → EReal) = h2 m c := by
  show StableHlo.after hostOps2 _ _ = _; after_results; exact w4_v42 m ρ c
theorem w5_v56 : (W5 m ρ c (Proc.devRef .tc main_v56) : S1x64.Idx → EReal) = shapeCast S1x64 (aBl2 m c) shapeCasts_S64_S1x64 := by
  show StableHlo.after hostOps2 _ _ = _; after_results; rw [w4_arg9]; rfl
theorem w5_arg8 : (W5 m ρ c (Proc.devRef .tc main_arg8) : S128x64.Idx → EReal) = aWl2 m c := by
  show StableHlo.after hostOps2 _ _ = _; after_results; exact w4_arg8 m ρ c
theorem w5_arg10 : (W5 m ρ c (Proc.devRef .tc main_arg10) : S128x64.Idx → EReal) = aWr2 m c := by
  show StableHlo.after hostOps2 _ _ = _; after_results; exact w4_arg10 m ρ c

/-! ## After the third region: the result -/

/-- The result buffer at the last boundary holds the third layer of the second of the first. -/
theorem w6_v57 : (W6 m ρ c (Proc.devRef .tc main_v57) : S100000x64.Idx → EReal)
    = Cert.Sage.out2 (aE m c) (h2 m c) (aWl2 m c) (aBl2 m c) (aWr2 m c) := by
  refine (W6_arr m ρ c 5).trans ((Cert.KernelIdeal.Blocks2.final (V5 m ρ) c).trans ?_)
  show Cert.Lib.DenseLayer.affine (W5 m ρ c (Proc.devRef .tc main_v55)) (W5 m ρ c (Proc.devRef .tc main_v42)) (W5 m ρ c (Proc.devRef .tc main_arg8))
    (fun i => W5 m ρ c (Proc.devRef .tc main_v56) (ix2 (0 : Fin 1) (i 0))) (W5 m ρ c (Proc.devRef .tc main_arg10)) = _
  rw [w5_v55, w5_v42, w5_arg8, w5_v56, w5_arg10, bias_row]
  rfl

end Cert.KernelIdeal.Val

end
-- ==== Proof.RefSide.lean ====
/- The reference program's result is the network with the sums divided by the counts. -/
import proofs.«101241_j35278861369955_1_alg».proof.Proof.Gen.ReferenceIdeal.Run
import proofs.«101241_j35278861369955_1_alg».proof.Proof.Spec

noncomputable section

namespace Cert.Sage

open Idealize.ShloMosaic Idealize.ShloMosaic.TcCoe Idealize.SL.Sem Cert.ReferenceIdeal

/-- The reference run's composed term is `netDiv` of the argument arrays: the same operations, named. -/
theorem ref_result (m : (ℓ : Loc nD τ sig) → Buf (Elt Ideal) ℓ) (c : Dev nD) :
    Cert.ReferenceIdeal.Value.res_main_v82 (F := Ideal) m c
      = netDiv (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v82
  rfl

end Cert.Sage

end
-- ==== Proof.lean ====
/- The certificate of a three-layer graph convolution: each layer averages, at every node, the feature rows of the
   sources of its arriving edges (a row gather, an accumulating scatter, a division by the arrival count floored at
   one), and maps (average, features) to max(average · Wl + bl + features · Wr, 0).

   The kernel program computes the reciprocal of the floored counts once and multiplies each scattered sum by it;
   its three regions compute the affine map and the maximum, twenty row blocks of 5000 nodes each, the operands
   narrowed on the way into the two products.  The reference divides each sum by the floored counts and uses host
   products.  On the extended reals the narrowing is the identity, a product into a zero accumulator and a host
   product are the same sum over the contracted axis, and a product with 1 / c is the quotient by c whenever c is
   not zero — which a maximum with one never is.  The gathers and scatters are the same operations on both sides
   and are never opened.  So the two results are one function of the arguments (`Cert.Sage.net_eq`).

   The kernel's result is read off its run: the result buffer ends at the last boundary's contents
   (`Cert.KernelIdeal.Out.run_out`), which is the third closed-form layer of the second of the first of the launch
   arrays (`Cert.KernelIdeal.Val.w6_v57`); the reference's result is its run's composed term, which is the same
   network written with host operations (`Cert.Sage.ref_result`).  No finiteness of the inputs is used. -/
import proofs.«101241_j35278861369955_1_alg».proof.Defs
import proofs.«101241_j35278861369955_1_alg».proof.Proof.Gen.Kernel
import proofs.«101241_j35278861369955_1_alg».proof.Proof.Gen.Kernel.Skeleton
import proofs.«101241_j35278861369955_1_alg».proof.Proof.Gen.Kernel.Launch
import proofs.«101241_j35278861369955_1_alg».proof.Proof.Gen.Kernel.Points
import proofs.«101241_j35278861369955_1_alg».proof.Proof.Gen.Kernel.Frame
import proofs.«101241_j35278861369955_1_alg».proof.Proof.Gen.KernelIdeal
import proofs.«101241_j35278861369955_1_alg».proof.Proof.Gen.KernelIdeal.Skeleton
import proofs.«101241_j35278861369955_1_alg».proof.Proof.Gen.KernelIdeal.Launch
import proofs.«101241_j35278861369955_1_alg».proof.Proof.Gen.KernelIdeal.Points
import proofs.«101241_j35278861369955_1_alg».proof.Proof.Gen.KernelIdeal.Frame
import proofs.«101241_j35278861369955_1_alg».proof.Proof.Gen.ReferenceIdeal
import proofs.«101241_j35278861369955_1_alg».proof.Proof.Gen.ReferenceIdeal.Run
import proofs.«101241_j35278861369955_1_alg».proof.Proof.Gen.Pre_finite_inputs
import proofs.«101241_j35278861369955_1_alg».proof.Proof.KerRunOut
import proofs.«101241_j35278861369955_1_alg».proof.Proof.KerValue
import proofs.«101241_j35278861369955_1_alg».proof.Proof.RefSide
import proofs.«101241_j35278861369955_1_alg».proof.Proof.Bridge
import Idealize.ShloMosaic.Adequacy
import Idealize.ShloMosaic.Init

noncomputable section

namespace Cert.Proof

open Idealize.ShloMosaic Idealize.SL.Sem

/-- The three frames: the kernel program's two readings by the run of its segments, the reference's by its run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the printed one read on the extended reals: nothing was rewritten. -/
theorem preserves : Cert.preserves_Kernel_KernelIdeal := trivial

/-- Both programs end with the network's value of the arguments: the kernel's with reciprocal counts and closed-form
    layers, the reference's with quotients and host layers, one function. -/
theorem algebraic : Cert.algebraic_KernelIdeal_ReferenceIdeal := by
  intro m ρ m' ρ' _ hagree
  refine ⟨fun c => Cert.Sage.out2 (Cert.KernelIdeal.Val.aE m c) (Cert.KernelIdeal.Val.h2 m c) (Cert.KernelIdeal.Val.aWl2 m c)
    (Cert.KernelIdeal.Val.aBl2 m c) (Cert.KernelIdeal.Val.aWr2 m c), ?_, ?_⟩
  · exact (θ_run Cert.KernelIdeal.defs _ _).mono
      (fun r h c => ⟨(h c).1.trans (Cert.KernelIdeal.Val.w6_v57 m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.Sage.ref_result]
    obtain ⟨e0, e1, e2, e3, e4, e5, e6, e7, e8, e9, e10⟩ := hagree c
    rw [e0, e1, e2, e3, e4, e5, e6, e7, e8, e9, e10]
    exact (Cert.Sage.net_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
